-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8929x512 : Shape := ⟨2, ![8929, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8929x512 : S_.BroadcastsInDim S8929x512 (![] : Fin 0 → Fin S8929x512.rank)
  reducesTo_S8929x512_S_d0_1 : S8929x512.ReducesTo [0, 1] S_

variable [Facts]

def fn {F : FTy → Type} [FloatOps F] (main_arg0 : FVec F S8x2048x512 .f32) (main_arg1 : FVec F S8929x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8929x512 .f32 := Host.absf main_arg1
  let main_cst_0 : FVec F S_ .f32 := constant S_ .f32 0x7F800000#32
  let main_v5 : FVec F S8929x512 .f32 := broadcastInDim S8929x512 ![] bcast_S_S8929x512 main_cst_0
  let main_v6 : IVec S8929x512 1 := cmpf .olt main_v4 main_v5
  let main_c_1 : IVec S_ 1 := constantI S_ 1 1#1
  let main_v7 : IVec S_ 1 := (fun x v => Host.reduce IntOp.andi x v reducesTo_S8929x512_S_d0_1 h_S_) main_v6 main_c_1
  let main_v8 : IVec S_ 1 := andi main_v3 main_v7
  main_v8
-- ==== Kernel.lean ====
abbrev S8x2048x512 : Shape := ⟨3, ![8, 2048, 512]⟩
abbrev S8929x512 : Shape := ⟨2, ![8929, 512]⟩
abbrev S_ : Shape := ⟨0, ![]⟩
abbrev S9216x512 : Shape := ⟨2, ![9216, 512]⟩
abbrev S8x8929x512 : Shape := ⟨3, ![8, 8929, 512]⟩
abbrev S8x8929x2048 : Shape := ⟨3, ![8, 8929, 2048]⟩
abbrev S512x512 : Shape := ⟨2, ![512, 512]⟩
abbrev S1x2048x512 : Shape := ⟨3, ![1, 2048, 512]⟩
abbrev S1x512x512 : Shape := ⟨3, ![1, 512, 512]⟩
abbrev S1x512x2048 : Shape := ⟨3, ![1, 512, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8929x512, .f32⟩
  | .hbm, ⟨2, _⟩ => ⟨S8929x512, .bf16⟩
  | .hbm, ⟨3, _⟩ => ⟨S_, .i32⟩
  | .hbm, ⟨4, _⟩ => ⟨S_, .bf16⟩
  | .hbm, ⟨5, _⟩ => ⟨S9216x512, .bf16⟩
  | .hbm, ⟨6, _⟩ => ⟨S8x8929x512, .f32⟩
  | .hbm, ⟨7, _⟩ => ⟨S8x8929x2048, .f32⟩
  | .local _ .vmem, ⟨0, _⟩ => ⟨S512x512, .bf16⟩
  | .local _ .vmem, ⟨1, _⟩ => ⟨S512x512, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x512, .f32⟩
  | .local _ .vmem, ⟨5, _⟩ => ⟨S1x512x512, .f32⟩
  | .local _ .vmem, ⟨6, _⟩ => ⟨S1x512x2048, .f32⟩
  | .local _ .vmem, ⟨7, _⟩ => ⟨S1x512x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  pads_S8929x512_S9216x512_02870_000 : S8929x512.Pads (![0, 0] : Fin 2 → Nat) ![287, 0] ![0, 0] S9216x512
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S9216x512.size a
  hwx0_0 : ∀ i : grid0.Coords, EltTy.bits .bf16 = 32 ∨ (Rect.block (s := S9216x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512x512.size a < S8x8929x512.size a
  hwx0_2 : ∀ i : grid0.Coords, EltTy.bits .f32 = 32 ∨ (Rect.unit (s := S8x8929x512) (fun a => cc0_transform_2 i a * S1x512x512.size a) (fun a => (Pipeline.Clip.of (cc0_transform_2 i a) (S1x512x512.size a) (S8x8929x512.size a)).extent (S1x512x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512x512) (fun _ => 0) (fun a => (Pipeline.Clip.of (cc0_transform_2 i a) (S1x512x512.size a) (S8x8929x512.size a)).extent (S1x512x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512x2048.size a < S8x8929x2048.size a
  hwx0_3 : ∀ i : grid0.Coords, EltTy.bits .f32 = 32 ∨ (Rect.unit (s := S8x8929x2048) (fun a => cc0_transform_3 i a * S1x512x2048.size a) (fun a => (Pipeline.Clip.of (cc0_transform_3 i a) (S1x512x2048.size a) (S8x8929x2048.size a)).extent (S1x512x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x512x2048) (fun _ => 0) (fun a => (Pipeline.Clip.of (cc0_transform_3 i a) (S1x512x2048.size a) (S8x8929x2048.size a)).extent (S1x512x2048.size a)) fun a => (Nat.zero_add _).trans_le (Pipeline.Clip.extent_le (Pipeline.Clip.ok_of (hstart0_3 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v2_0) S1x512x512.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2_1) S1x512x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8929x512 : Shape := ⟨2, ![8929, 512]⟩
abbrev S8929x8x2048 : Shape := ⟨3, ![8929, 8, 2048]⟩
abbrev S8x8929x2048 : Shape := ⟨3, ![8, 8929, 2048]⟩
abbrev S_ : Shape := ⟨0, ![]⟩
abbrev S8x8929 : Shape := ⟨2, ![8, 8929]⟩
abbrev S8x8929x1 : Shape := ⟨3, ![8, 8929, 1]⟩
abbrev S8x8929x512 : Shape := ⟨3, ![8, 8929, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8929x512, .f32⟩
  | .hbm, ⟨2, _⟩ => ⟨S8929x8x2048, .f32⟩
  | .hbm, ⟨3, _⟩ => ⟨S8x8929x2048, .f32⟩
  | .hbm, ⟨4, _⟩ => ⟨S_, .f32⟩
  | .hbm, ⟨5, _⟩ => ⟨S8x8929, .f32⟩
  | .hbm, ⟨6, _⟩ => ⟨S_, .f32⟩
  | .hbm, ⟨7, _⟩ => ⟨S8x8929, .f32⟩
  | .hbm, ⟨8, _⟩ => ⟨S8x8929, .f32⟩
  | .hbm, ⟨9, _⟩ => ⟨S8x8929x1, .f32⟩
  | .hbm, ⟨10, _⟩ => ⟨S8x8929x2048, .f32⟩
  | .hbm, ⟨11, _⟩ => ⟨S8x8929x2048, .f32⟩
  | .hbm, ⟨12, _⟩ => ⟨S8x8929x2048, .f32⟩
  | .hbm, ⟨13, _⟩ => ⟨S_, .f32⟩
  | .hbm, ⟨14, _⟩ => ⟨S8x8929, .f32⟩
  | .hbm, ⟨15, _⟩ => ⟨S8x8929x1, .f32⟩
  | .hbm, ⟨16, _⟩ => ⟨S8x8929x2048, .f32⟩
  | .hbm, ⟨17, _⟩ => ⟨S8x8929x2048, .f32⟩
  | .hbm, ⟨18, _⟩ => ⟨S8x8929x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S8929x8x2048_S8x8929x2048_1_0_2 : S8929x8x2048.Transposes [1, 0, 2] S8x8929x2048
  reducesTo_S8x8929x2048_S8x8929_d2 : S8x8929x2048.ReducesTo [2] S8x8929
  h_S_ : 0 < S_.numel
  bcast_S_S8x8929 : S_.BroadcastsInDim S8x8929 (![] : Fin 0 → Fin S8x8929.rank)
  bcast_S8x8929_S8x8929x1_0_1 : S8x8929.BroadcastsInDim S8x8929x1 (![0, 1] : Fin 2 → Fin S8x8929x1.rank)
  bcast_S8x8929x1_S8x8929x2048_0_1_2 : S8x8929x1.BroadcastsInDim S8x8929x2048 (![0, 1, 2] : Fin 3 → Fin S8x8929x2048.rank)
  dot_S8929x512_S8x2048x512_S8929x8x2048_1_2_0_01_n_n_wf : DotDims.WF S8929x512 S8x2048x512 S8929x8x2048 [1] [2] [0] [0, 1] [] []
  dot_S8x8929x2048_S8x2048x512_S8x8929x512_2_1_1_2_0_0_wf : DotDims.WF S8x8929x2048 S8x2048x512 S8x8929x512 [2] [1] [1] [2] [0] [0]

variable [Facts₀]

def dot_S8929x512_S8x2048x512_S8929x8x2048_1_2_0_01_n_n : DotDims S8929x512 S8x2048x512 S8929x8x2048 where
  lhsContracting := [1]
  rhsContracting := [2]
  lhsNonContracting := [0]
  rhsNonContracting := [0, 1]
  lhsBatch := []
  rhsBatch := []
  wf := dot_S8929x512_S8x2048x512_S8929x8x2048_1_2_0_01_n_n_wf
def dot_S8x8929x2048_S8x2048x512_S8x8929x512_2_1_1_2_0_0 : DotDims S8x8929x2048 S8x2048x512 S8x8929x512 where
  lhsContracting := [2]
  rhsContracting := [1]
  lhsNonContracting := [1]
  rhsNonContracting := [2]
  lhsBatch := [0]
  rhsBatch := [0]
  wf := dot_S8x8929x2048_S8x2048x512_S8x8929x512_2_1_1_2_0_0_wf

class Facts : Prop extends Facts₀ where

variable [Facts]
-- ==== Proof.Spec.lean ====
/-
  Label attention, row by row, on the extended reals.

  For one batch entry the input is a matrix `X` of 2048 positions by 512 features, and for one label a weight row `u`
  of 512 features. The label's score at position `s` is the inner product of `u` with row `s` of `X`; its attention
  weights are the softmax of the scores over the positions, taken in the stabilised form (the row's maximum is
  subtracted before exponentiating, and that maximum is itself capped below by minus infinity, which changes nothing
  but is how both programs spell it); its output is the weights' combination of the rows of `X`.

  Every definition is a function of ONE weight row and ONE batch matrix: a label's results depend on no other label,
  which is what lets a block of labels be computed apart from the rest.
-/
import Idealize.ShloMosaic.PureOps.Ideal
import Idealize.ShloMosaic.Lib.ValueIdx

noncomputable section

namespace Cert.LabelAttention

open Idealize.ShloMosaic Idealize.ShloMosaic.ValueIdx

/-- Minus infinity, as the single-precision pattern both programs write for it. -/
abbrev negInf : EReal := Ideal.ofBits .f32 0xFF800000#32

/-- The score of a label with weight row `u` at position `s`: the inner product over the 512 features. -/
def scoreRow (u : Fin 512 → EReal) (X : Fin 2048 → Fin 512 → EReal) (s : Fin 2048) : EReal :=
  ∑ e : Fin 512, u e * X s e

/-- The largest score of a row over the 2048 positions, folded from minus infinity and capped below by it. -/
def rowMax (sc : Fin 2048 → EReal) : EReal :=
  max negInf ((Finset.univ : Finset (Fin 2048)).fold max negInf sc)

/-- The exponential of a score less the row's maximum. -/
def expRow (sc : Fin 2048 → EReal) (s : Fin 2048) : EReal := Ideal.exp (sc s - rowMax sc)

/-- The softmax weight at position `s`: that exponential over the sum of the row's exponentials. -/
def softRow (sc : Fin 2048 → EReal) (s : Fin 2048) : EReal :=
  Ideal.div (expRow sc s) (∑ k : Fin 2048, expRow sc k)

/-- Feature `e` of the output: the weights' combination of column `e` of `X` over the positions. -/
def outRow (a : Fin 2048 → EReal) (X : Fin 2048 → Fin 512 → EReal) (e : Fin 512) : EReal :=
  ∑ s : Fin 2048, a s * X s e

/-- Row `l` of the label weights. -/
def weightRow (U : (⟨2, ![8929, 512]⟩ : Shape).Idx → EReal) (l : Fin 8929) : Fin 512 → EReal :=
  fun e => U (ix2 l e)

/-- Batch entry `b` of the input as a matrix of positions by features. -/
def batchMat (x : (⟨3, ![8, 2048, 512]⟩ : Shape).Idx → EReal) (b : Fin 8) : Fin 2048 → Fin 512 → EReal :=
  fun s e => x (ix3 b s e)

/-- The attention weights of every batch entry and label: entry `(b, l, s)` is the softmax over positions of
    label `l`'s scores against batch entry `b`, at position `s`. -/
def alphaOf (x : (⟨3, ![8, 2048, 512]⟩ : Shape).Idx → EReal) (U : (⟨2, ![8929, 512]⟩ : Shape).Idx → EReal) :
    (⟨3, ![8, 8929, 2048]⟩ : Shape).Idx → EReal :=
  fun i => softRow (scoreRow (weightRow U (i 1)) (batchMat x (i 0))) (i 2)

/-- The attended features of every batch entry and label: entry `(b, l, e)` combines the rows of batch entry `b`
    by label `l`'s attention weights, at feature `e`. -/
def outOf (x : (⟨3, ![8, 2048, 512]⟩ : Shape).Idx → EReal) (U : (⟨2, ![8929, 512]⟩ : Shape).Idx → EReal) :
    (⟨3, ![8, 8929, 512]⟩ : Shape).Idx → EReal :=
  fun i => outRow (softRow (scoreRow (weightRow U (i 1)) (batchMat x (i 0)))) (batchMat x (i 0)) (i 2)

end Cert.LabelAttention

end
-- ==== Proof.RefIsSpec.lean ====
/-
  The reference program computes the row-wise label attention of `Spec.lean`.

  Read one operation at a time, the reference forms every score as an inner product over the 512 features (a
  contraction whose result it then transposes so that the label axis follows the batch axis), takes each row's
  maximum over the 2048 positions (folded from minus infinity, then capped below by minus infinity once more),
  subtracts it, exponentiates, sums the exponentials over the positions from zero, divides, and contracts the
  quotient with the input over the positions. Entry by entry these are the definitions of the specification at the
  label's weight row and the batch entry's matrix; the only arithmetic used is `0 + a = a`.
-/
import proofs.«131655_j85899346168_2_alg».proof.Proof.Gen.ReferenceIdeal.Read
import proofs.«131655_j85899346168_2_alg».proof.Proof.Spec
import Idealize.ShloMosaic.PureOps.Ideal.Laws

noncomputable section

namespace Cert.LabelAttention.Reference

open Cert.ReferenceIdeal Cert.ReferenceIdeal.Gen Cert.ReferenceIdeal.Read
open Idealize.ShloMosaic Idealize.ShloMosaic.ValueIdx Cert.LabelAttention

variable (x0 : (⟨S8x2048x512, .f32⟩ : BufTy).Contents (Elt Ideal)) (x1 : (⟨S8929x512, .f32⟩ : BufTy).Contents (Elt Ideal))

/-- The positions axis of the scores is reduced away, leaving batch entry and label. -/
theorem positionsReduce : S8x8929x2048.Reduces [2] S8x8929 := by decide

/-- Batch entry `b` and label `l` with position `k` put back on the reduced axis is the index `(b, l, k)`. -/
theorem lift_eq (b : Fin 8) (l : Fin 8929) (k : Fin 2048) : positionsReduce.lift (ix2 b l) k = ix3 b l k :=
  funext fun a => Fin.ext (by match a with | ⟨0, _⟩ => rfl | ⟨1, _⟩ => rfl | ⟨2, _⟩ => rfl)

/-- The score at `(b, l, s)`: label `l`'s weight row against row `s` of batch entry `b`. -/
theorem score_eq (b : Fin 8) (l : Fin 8929) (s : Fin 2048) :
    val_main_v1 (F := Ideal) x0 x1 (ix3 b l s) = scoreRow (weightRow x1 l) (batchMat x0 b) s := by
  rw [val_main_v1_apply, val_main_v0_apply]
  unfold scoreRow weightRow batchMat
  refine Finset.sum_congr rfl fun k _ => ?_
  have el : lidx_main_v0 (idx_main_v1 (ix3 b l s)) k = ix2 l k :=
    funext fun a => Fin.ext (by match a with | ⟨0, _⟩ => rfl | ⟨1, _⟩ => rfl)
  have er : ridx_main_v0 (idx_main_v1 (ix3 b l s)) k = ix3 b s k :=
    funext fun a => Fin.ext (by match a with | ⟨0, _⟩ => rfl | ⟨1, _⟩ => rfl | ⟨2, _⟩ => rfl)
  rw [el, er]

/-- The row's maximum over the positions, folded from minus infinity, at `(b, l)`. -/
theorem fold_eq (b : Fin 8) (l : Fin 8929) :
    val_main_v2 (F := Ideal) x0 x1 (ix2 b l)
      = (Finset.univ : Finset (Fin 2048)).fold max negInf (scoreRow (weightRow x1 l) (batchMat x0 b)) := by
  unfold val_main_v2
  refine (Host.reduce_eq_fold_single (FloatOps.maximumf (F := Ideal) (φ := .f32)) (val_main_v1 (F := Ideal) x0 x1)
    (val_main_cst (F := Ideal)) reducesTo_S8x8929x2048_S8x8929_d2 positionsReduce h_S_ (ix2 b l)).trans ?_
  refine Finset.fold_congr fun k _ => ?_
  exact (congrArg (val_main_v1 (F := Ideal) x0 x1) (lift_eq b l k)).trans (score_eq x0 x1 b l k)

/-- The capped row maximum at `(b, l)`. -/
theorem max_eq (b : Fin 8) (l : Fin 8929) :
    val_main_v4 (F := Ideal) x0 x1 (ix2 b l) = rowMax (scoreRow (weightRow x1 l) (batchMat x0 b)) := by
  rw [val_main_v4_apply, val_main_v3_apply, val_main_cst_0_apply, fold_eq]
  rfl

/-- The exponential of a score less its row's maximum, at `(b, l, s)`. -/
theorem exp_eq (b : Fin 8) (l : Fin 8929) (s : Fin 2048) :
    val_main_v8 (F := Ideal) x0 x1 (ix3 b l s) = expRow (scoreRow (weightRow x1 l) (batchMat x0 b)) s := by
  rw [val_main_v8_apply, val_main_v7_apply, val_main_v6_apply, val_main_v5_apply]
  have e : idx_main_v5 (idx_main_v6 (ix3 b l s)) = ix2 b l :=
    funext fun a => Fin.ext (by match a with | ⟨0, _⟩ => rfl | ⟨1, _⟩ => rfl)
  rw [e, max_eq, score_eq]
  rfl

/-- The sum of a row's exponentials over the positions, at `(b, l)`: the reference starts it from zero. -/
theorem den_eq (b : Fin 8) (l : Fin 8929) :
    val_main_v9 (F := Ideal) x0 x1 (ix2 b l) = ∑ k : Fin 2048, expRow (scoreRow (weightRow x1 l) (batchMat x0 b)) k := by
  rw [val_main_v9_apply, val_main_cst_1_apply]
  show Ideal.ofBits .f32 0x00000000#32 + _ = _
  rw [Ideal.ofBits_zero_f32, zero_add]
  refine Finset.sum_congr rfl fun k _ => ?_
  have e : idx_main_v9 (ix2 b l) k = ix3 b l k :=
    funext fun a => Fin.ext (by match a with | ⟨0, _⟩ => rfl | ⟨1, _⟩ => rfl | ⟨2, _⟩ => rfl)
  rw [e]
  exact exp_eq x0 x1 b l k

/-- The attention weight at `(b, l, s)`. -/
theorem alpha_at (b : Fin 8) (l : Fin 8929) (s : Fin 2048) :
    val_main_v12 (F := Ideal) x0 x1 (ix3 b l s) = softRow (scoreRow (weightRow x1 l) (batchMat x0 b)) s := by
  rw [val_main_v12_apply, val_main_v11_apply, val_main_v10_apply]
  have e : idx_main_v10 (idx_main_v11 (ix3 b l s)) = ix2 b l :=
    funext fun a => Fin.ext (by match a with | ⟨0, _⟩ => rfl | ⟨1, _⟩ => rfl)
  rw [e, den_eq, exp_eq]
  rfl

/-- The attended feature at `(b, l, e)`. -/
theorem out_at (b : Fin 8) (l : Fin 8929) (e : Fin 512) :
    val_main_v13 (F := Ideal) x0 x1 (ix3 b l e)
      = outRow (softRow (scoreRow (weightRow x1 l) (batchMat x0 b))) (batchMat x0 b) e := by
  rw [val_main_v13_apply]
  unfold outRow
  refine Finset.sum_congr rfl fun k _ => ?_
  have el : lidx_main_v13 (ix3 b l e) k = ix3 b l k :=
    funext fun a => Fin.ext (by match a with | ⟨0, _⟩ => rfl | ⟨1, _⟩ => rfl | ⟨2, _⟩ => rfl)
  have er : ridx_main_v13 (ix3 b l e) k = ix3 b k e :=
    funext fun a => Fin.ext (by match a with | ⟨0, _⟩ => rfl | ⟨1, _⟩ => rfl | ⟨2, _⟩ => rfl)
  rw [el, er, alpha_at]
  rfl

/-- The reference's second result, the attention weights, is the specification's. -/
theorem alpha_eq : val_main_v12 (F := Ideal) x0 x1 = alphaOf x0 x1 := by
  funext i
  obtain ⟨b, l, s, rfl⟩ : ∃ (b : Fin 8) (l : Fin 8929) (s : Fin 2048), i = ix3 b l s := ⟨i 0, i 1, i 2, eq_ix3 i⟩
  exact alpha_at x0 x1 b l s

/-- The reference's first result, the attended features, is the specification's. -/
theorem out_eq : val_main_v13 (F := Ideal) x0 x1 = outOf x0 x1 := by
  funext i
  obtain ⟨b, l, e, rfl⟩ : ∃ (b : Fin 8) (l : Fin 8929) (e : Fin 512), i = ix3 b l e := ⟨i 0, i 1, i 2, eq_ix3 i⟩
  exact out_at x0 x1 b l e

end Cert.LabelAttention.Reference

end
-- ==== Proof.PaddedWeights.lean ====
/-
  The weight array the kernel's region reads is the label weights followed by 287 rows of padding.

  Before the region the program changes the weights' number format (the identity on the extended reals) and pads the
  8929 rows to 9216 with a converted integer zero. A row below 8929 of the padded array is therefore the same row of
  the weights; the padding rows are never needed, because no stored entry depends on them.
-/
import proofs.«131655_j85899346168_2_alg».proof.Proof.Gen.KernelIdeal.Frame
import Idealize.ShloMosaic.Lib.KernelVsHost
import Idealize.ShloMosaic.Lib.StableHlo.Run

noncomputable section

namespace Cert.LabelAttention.Padded

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The padded weights as the region finds them: the two operations before it, applied to the weights as launched. -/
theorem padded_eq (c : Dev nD) :
    (V m c main_v1 : S9216x512.Idx → Elt Ideal .bf16)
      = pad S9216x512 ![0, 0] ![287, 0] ![0, 0]
          (truncf (F := Ideal) .bf16 (m ((c : Thread nD τ).loc main_arg1)) bitsLt_bf16_f32)
          (sitofp (F := Ideal) .bf16 (constantI S_ 32 0#32)) pads_S8929x512_S9216x512_02870_000 h_S_ := by
  dsimp only [V]
  simp only [hostOps0, hostOps0_1, List.flatten_cons, List.flatten_nil, List.append_nil, List.cons_append,
    List.nil_append]
  after_results
  rfl

/-- Row `l` below 8929 of the padded weights is row `l` of the weights. -/
theorem padded_apply (c : Dev nD) (l : Fin 8929) (l' : Fin 9216) (hl : l'.val = l.val) (e : Fin 512) :
    (V m c main_v1 : S9216x512.Idx → Elt Ideal .bf16) (ix2 l' e) = m ((c : Thread nD τ).loc main_arg1) (ix2 l e) := by
  rw [padded_eq]
  exact pad_apply_of_inside ![0, 0] ![287, 0] ![0, 0] _ _ pads_S8929x512_S9216x512_02870_000 h_S_ (ix2 l' e) (ix2 l e)
    (fun a => by
      match a with
      | ⟨0, _⟩ => show l'.val = 0 + l.val * (0 + 1); omega
      | ⟨1, _⟩ => show e.val = 0 + e.val * (0 + 1); omega)

end Cert.LabelAttention.Padded

end
-- ==== Proof.BlockRows.lean ====
/-
  What the kernel's two input blocks hold at a grid point.

  The grid has a point for each batch entry `b` (8 of them) and each tile `li` of 512 labels (18 of them, the last
  reaching past label 8928). At that point the weight window holds rows `512·li … 512·li + 511` of the padded
  weights, and the input window holds batch entry `b` whole; both output windows are placed at batch entry `b`,
  label tile `li`. So row `r` of the weight block is row `l = 512·li + r` of the label weights whenever `l` is a
  label, and the input block is batch entry `b`'s matrix.
-/
import proofs.«131655_j85899346168_2_alg».proof.Proof.Gen.KernelIdeal.Value
import proofs.«131655_j85899346168_2_alg».proof.Proof.PaddedWeights
import proofs.«131655_j85899346168_2_alg».proof.Proof.Spec

noncomputable section

namespace Cert.LabelAttention.Blocks

open Cert.KernelIdeal Cert.KernelIdeal.Gen
open Idealize.ShloMosaic Idealize.ShloMosaic.TcCoe Idealize.ShloMosaic.ValueIdx Idealize.SL.Sem
open Cert.LabelAttention

variable (m : (ℓ : Loc nD τ sig) → Buf (Elt Ideal) ℓ)

/-- The four windows' block indices at every grid point, related: the weight window moves with the outputs' label
    tile, the input window with their batch entry, and nothing else moves; the outputs' indices stay in range. -/
theorem idx_facts : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = 0
    ∧ win0_1.index t (2 : Fin 3) = 0 ∧ win0_3.index t (2 : Fin 3) = 0
    ∧ win0_3.index t (0 : Fin 3) ≤ 7 ∧ win0_3.index t (1 : Fin 3) ≤ 17
    ∧ win0_2.index t (0 : Fin 3) = win0_3.index t (0 : Fin 3)
    ∧ win0_2.index t (1 : Fin 3) = win0_3.index t (1 : Fin 3)
    ∧ win0_2.index t (2 : Fin 3) = 0 :=
  (by decide +kernel : ∀ t : Fin grid0.N, _)

/-- Row `r` of the weight block at point `t` is row `l` of the label weights, for the label `l = 512·li + r`. -/
theorem weightBlock_apply (c : Dev nD) (t : Fin cfg0.N) (r : Fin 512) (e : Fin 512) (l : Fin 8929)
    (hl : l.val = win0_3.index t (1 : Fin 3) * 512 + r.val) :
    (iblk m c 0 t : S512x512.Idx → Elt Ideal .bf16) (ix2 r e) = m ((c : Thread nD τ).loc main_arg1) (ix2 l e) := by
  obtain ⟨f0, f1, -, -, -, -, -, f7, -, -, -⟩ := idx_facts t
  unfold iblk
  rw [View.read_apply]
  have hl' : win0_3.index t (1 : Fin 3) * 512 + r.val < 9216 := by have := r.isLt; omega
  have he : ((cfg0.win 0).blk t).view.emb (ix2 r e) = ix2 (⟨win0_3.index t (1 : Fin 3) * 512 + r.val, hl'⟩ : Fin 9216) e := by
    funext a; apply Fin.ext
    match a with
    | ⟨0, _⟩ => show win0_0.index t (0 : Fin 2) * 512 + 1 * r.val = win0_3.index t (1 : Fin 3) * 512 + r.val; rw [f0]; omega
    | ⟨1, _⟩ => show win0_0.index t (1 : Fin 2) * 512 + 1 * e.val = e.val; rw [f1]; omega
  show (V m c main_v1 : S9216x512.Idx → Elt Ideal .bf16) (((cfg0.win 0).blk t).view.emb (ix2 r e)) = _
  rw [he]
  exact Padded.padded_apply m c l _ hl.symm e

/-- The input block at point `t` is batch entry `b` of the input. -/
theorem inputBlock_apply (c : Dev nD) (t : Fin cfg0.N) (k : Fin 2048) (e : Fin 512) (b : Fin 8)
    (hb : b.val = win0_3.index t (0 : Fin 3)) :
    (iblk m c 1 t : S1x2048x512.Idx → Elt Ideal .f32) (ix3 (0 : Fin 1) k e) = m ((c : Thread nD τ).loc main_arg0) (ix3 b k e) := by
  obtain ⟨-, -, f2, f3, f4, -, -, -, -, -, -⟩ := idx_facts t
  unfold iblk
  rw [View.read_apply]
  have he : ((cfg0.win 1).blk t).view.emb (ix3 (0 : Fin 1) k e) = ix3 b k e := by
    funext a; apply Fin.ext
    match a with
    | ⟨0, _⟩ => show win0_1.index t (0 : Fin 3) * 1 + 1 * 0 = b.val; rw [f2, hb]; omega
    | ⟨1, _⟩ => show win0_1.index t (1 : Fin 3) * 2048 + 1 * k.val = k.val; rw [f3]; omega
    | ⟨2, _⟩ => show win0_1.index t (2 : Fin 3) * 512 + 1 * e.val = e.val; rw [f4]; omega
  show (V m c main_arg0 : S8x2048x512.Idx → Elt Ideal .f32) (((cfg0.win 1).blk t).view.emb (ix3 (0 : Fin 1) k e)) = _
  rw [he, V_main_arg0]

/-- At point `t`, row `r` of the weight block and the input block are the label's weight row and the batch
    entry's matrix of the specification. -/
theorem rows_at (c : Dev nD) (t : Fin cfg0.N) (r : Fin 512) (b : Fin 8) (l : Fin 8929)
    (hb : b.val = win0_3.index t (0 : Fin 3)) (hl : l.val = win0_3.index t (1 : Fin 3) * 512 + r.val) :
    (fun e : Fin 512 => (iblk m c 0 t : S512x512.Idx → Elt Ideal .bf16) (ix2 r e))
        = weightRow (m ((c : Thread nD τ).loc main_arg1)) l
      ∧ (fun (k : Fin 2048) (e : Fin 512) => (iblk m c 1 t : S1x2048x512.Idx → Elt Ideal .f32) (ix3 (0 : Fin 1) k e))
        = batchMat (m ((c : Thread nD τ).loc main_arg0)) b :=
  ⟨funext fun e => weightBlock_apply m c t r e l hl, funext fun k => funext fun e => inputBlock_apply m c t k e b hb⟩

end Cert.LabelAttention.Blocks

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.KernelRows.lean ====
/-
  The kernel body's arithmetic, read entry by entry, is the row-wise label attention of `Spec.lean`.

  The body works on a block of 512 weight rows and one batch entry's 2048 × 512 matrix. It contracts the two over the
  features into a 512 × 2048 block of scores (accumulating into zero), takes each row's maximum over the positions
  (from minus infinity, then capped below by minus infinity), spreads that maximum along its row, subtracts,
  exponentiates, sums each row's exponentials, spreads the sum along its row, divides, and finally contracts the
  quotient with the same matrix over the positions (again into zero). Every change of number format is the identity on
  the extended reals, and every reshape only adds or drops an axis of extent one.

  Row `r` of each result is the specification's function of row `r` of the weight block alone.
-/
import proofs.«131655_j85899346168_2_alg».proof.Proof.Gen.KernelIdeal.Skeleton
import proofs.«131655_j85899346168_2_alg».proof.Proof.Spec
import proofs.«131655_j85899346168_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

noncomputable section

namespace Cert.LabelAttention.Kernel

open Cert.KernelIdeal Cert.KernelIdeal.Gen
open Idealize.ShloMosaic Idealize.ShloMosaic.ValueIdx Cert.LabelAttention

/-- The contraction of a weight block with the batch matrix over the features: both operands' second axis. -/
abbrev scoreDot := dot_S512x512_S2048x512_S512x2048_1_1_0_0_n_n
/-- The contraction of the attention weights with the batch matrix over the positions. -/
abbrev mixDot := dot_S512x2048_S2048x512_S512x512_1_0_0_1_n_n

/-! ## The batch matrix as the body holds it -/

/-- The loaded [1, 2048, 512] block with its leading axis dropped (and its format changed, which is the identity):
    entry `(k, e)` is the block's `(0, k, e)`. -/
theorem feat_apply (P1 : Vec Ideal S1x2048x512 .f32) (k : Fin 2048) (e : Fin 512) :
    k0_pay1 (F := Ideal) P1 (ix2 k e) = P1 (ix3 (0 : Fin 1) k e) := by
  unfold k0_pay1
  exact shapeCast_1ab_ab_apply P1 shapeCasts_S1x2048x512_S2048x512 k e

/-! ## The scores -/

theorem score_lhs0 (i : S512x2048.Idx) (q : scoreDot.contr.Idx) : (scoreDot.lhsIdx i q 0).val = (i 0).val := by
  unfold DotDims.lhsIdx
  rw [dif_neg (show ¬(0 : Fin S512x512.rank) ∈ scoreDot.lhsBatch by decide),
    dif_pos (show (0 : Fin S512x512.rank) ∈ scoreDot.lhsNonContracting by decide)]
  rfl
theorem score_lhs1 (i : S512x2048.Idx) (q : scoreDot.contr.Idx) :
    (scoreDot.lhsIdx i q 1).val = (q ⟨0, by decide⟩).val :=
  scoreDot.lhsIdx_val_of_single rfl i q
theorem score_rhs0 (i : S512x2048.Idx) (q : scoreDot.contr.Idx) : (scoreDot.rhsIdx i q 0).val = (i 1).val := by
  unfold DotDims.rhsIdx
  rw [dif_neg (show ¬(0 : Fin S2048x512.rank) ∈ scoreDot.rhsBatch by decide),
    dif_pos (show (0 : Fin S2048x512.rank) ∈ scoreDot.rhsNonContracting by decide)]
  rfl
theorem score_rhs1 (i : S512x2048.Idx) (q : scoreDot.contr.Idx) :
    (scoreDot.rhsIdx i q 1).val = (q ⟨0, by decide⟩).val :=
  scoreDot.rhsIdx_val_of_single rfl i q

/-- The block of scores the body forms from its two loads. -/
def scoresBlock (P0 : FVec Ideal S512x512 .bf16) (P1 : Vec Ideal S1x2048x512 .f32) : FVec Ideal S512x2048 .f32 :=
  matmul scoreDot none (shapeCast S512x512 P0 shapeCasts_S512x512_S512x512) (k0_pay1 P1)
    (constant (F := Ideal) S512x2048 .f32 0x00000000#32)

/-- Entry `(r, s)` of the scores: row `r` of the weight block against row `s` of the batch matrix, the
    accumulator's zero adding nothing. -/
theorem scores_apply (P0 : FVec Ideal S512x512 .bf16) (P1 : Vec Ideal S1x2048x512 .f32) (r : Fin 512) (s : Fin 2048) :
    scoresBlock P0 P1 (ix2 r s) = scoreRow (fun e => P0 (ix2 r e)) (fun k e => P1 (ix3 (0 : Fin 1) k e)) s := by
  unfold scoresBlock
  simp only [matmul]
  rw [Ideal.matmul_constant_zero_apply, ← Equiv.sum_comp (ValueIdx.contrEquiv1 scoreDot 512 rfl rfl).symm]
  unfold scoreRow
  refine Finset.sum_congr rfl fun k _ => ?_
  have hk := ValueIdx.contrEquiv1_symm_val scoreDot 512 rfl rfl k
  have el : scoreDot.lhsIdx (ix2 r s) ((ValueIdx.contrEquiv1 scoreDot 512 rfl rfl).symm k) = ix2 r k :=
    funext fun a => Fin.ext (by
      match a with
      | ⟨0, _⟩ => exact score_lhs0 _ _
      | ⟨1, _⟩ => exact (score_lhs1 _ _).trans hk)
  have er : scoreDot.rhsIdx (ix2 r s) ((ValueIdx.contrEquiv1 scoreDot 512 rfl rfl).symm k) = ix2 s k :=
    funext fun a => Fin.ext (by
      match a with
      | ⟨0, _⟩ => exact score_rhs0 _ _
      | ⟨1, _⟩ => exact (score_rhs1 _ _).trans hk)
  rw [el, er, shapeCast_self, feat_apply]

end Cert.LabelAttention.Kernel

end
-- ==== Proof.KernelSoftmax.lean ====
/-
  The kernel body's softmax of a block of scores, read entry by entry.

  Given a 512 × 2048 block of scores, the body takes each row's maximum over the positions (a fold of `max` from
  minus infinity, then capped below by minus infinity), lays the 512 maxima as a column and spreads the column along
  the positions, subtracts, exponentiates, sums each row of exponentials over the positions, spreads those sums the
  same way, and divides. Entry `(r, s)` of the result is therefore the specification's softmax of row `r` at
  position `s`: only row `r` of the block enters it.
-/
import proofs.«131655_j85899346168_2_alg».proof.Proof.KernelRows

noncomputable section

namespace Cert.LabelAttention.Kernel

open Cert.KernelIdeal Cert.KernelIdeal.Gen
open Idealize.ShloMosaic Idealize.ShloMosaic.ValueIdx Cert.LabelAttention

/-! ## Rows of a block -/

/-- Row `r` of a block with position `k` put back on the reduced axis is the entry `(r, k)`. -/
theorem lift_row (r : Fin 512) (k : Fin 2048) : reduces_S512x2048_S512.lift (ix1 r) k = ix2 r k :=
  funext fun a => Fin.ext (by match a with | ⟨0, _⟩ => rfl | ⟨1, _⟩ => rfl)

/-- A value per row, laid as a column and spread along the 2048 positions: entry `(r, s)` is row `r`'s value. -/
theorem spread_apply (w : FVec Ideal S512 .f32) (r : Fin 512) (s : Fin 2048) :
    broadcastTo S512x2048 (shapeCast S512x1 w shapeCasts_S512_S512x1) broadcasts_S512x1_S512x2048 (ix2 r s) = w (ix1 r) :=
  (Cert.ColumnLayouts.broadcastTo_a1_ab_apply _ broadcasts_S512x1_S512x2048 r s).trans
    (Cert.ColumnLayouts.shapeCast_a_a1_apply w shapeCasts_S512_S512x1 r (0 : Fin 1))

/-! ## The row maximum -/

/-- The row's maximum over the positions, folded from minus infinity, at row `r`. -/
theorem blockFold_apply (v5 : FVec Ideal S512x2048 .f32) (r : Fin 512) :
    multiReduction (F := Ideal) .maximumf [1] S512 v5 0xFF800000#32 reduces_S512x2048_S512 (.inl rfl) rfl (ix1 r)
      = (Finset.univ : Finset (Fin 2048)).fold max negInf (fun k => v5 (ix2 r k)) := by
  refine (Ideal.multiReduction_maximumf_single v5 0xFF800000#32 reduces_S512x2048_S512 (.inl rfl) rfl (ix1 r)).trans ?_
  refine Finset.fold_congr fun k _ => ?_
  exact congrArg v5 (lift_row r k)

/-- Each row's maximum over the positions, folded from minus infinity and capped below by it, as the body forms it. -/
def blockMax (v5 : FVec Ideal S512x2048 .f32) : FVec Ideal S512 .f32 :=
  maximumf (broadcast S512 (Scalar.ofBits (F := Ideal) .f32 0xFF800000#32))
    (multiReduction (F := Ideal) .maximumf [1] S512 v5 0xFF800000#32 reduces_S512x2048_S512 (.inl rfl) rfl)

theorem blockMax_apply (v5 : FVec Ideal S512x2048 .f32) (r : Fin 512) :
    blockMax v5 (ix1 r) = rowMax (fun k => v5 (ix2 r k)) := by
  unfold blockMax rowMax
  rw [maximumf_apply, broadcast_apply, blockFold_apply]
  rfl

/-! ## Exponentials, row sums, quotient -/

/-- The exponentials of the scores less their rows' maxima. -/
def expBlock (v5 : FVec Ideal S512x2048 .f32) : FVec Ideal S512x2048 .f32 :=
  exp (subf v5 (broadcastTo S512x2048 (shapeCast S512x1 (blockMax v5) shapeCasts_S512_S512x1) broadcasts_S512x1_S512x2048))

theorem expBlock_apply (v5 : FVec Ideal S512x2048 .f32) (r : Fin 512) (s : Fin 2048) :
    expBlock v5 (ix2 r s) = expRow (fun k => v5 (ix2 r k)) s := by
  unfold expBlock expRow
  refine congrArg (fun z => Ideal.exp (v5 (ix2 r s) - z)) ?_
  exact (spread_apply (blockMax v5) r s).trans (blockMax_apply v5 r)

/-- The quotient of each exponential by its row's sum of exponentials. -/
def softBlock (v5 : FVec Ideal S512x2048 .f32) : FVec Ideal S512x2048 .f32 :=
  divf (expBlock v5) (broadcastTo S512x2048 (shapeCast S512x1
    (multiReduction (F := Ideal) .add [1] S512 (expBlock v5) 0x00000000#32 reduces_S512x2048_S512 (.inl rfl) rfl)
    shapeCasts_S512_S512x1) broadcasts_S512x1_S512x2048)

/-- Entry `(r, s)` of the softmax of a block is the softmax of row `r` at position `s`. -/
theorem softBlock_apply (v5 : FVec Ideal S512x2048 .f32) (r : Fin 512) (s : Fin 2048) :
    softBlock v5 (ix2 r s) = softRow (fun k => v5 (ix2 r k)) s := by
  unfold softBlock softRow
  refine congrArg₂ Ideal.div (expBlock_apply v5 r s) ?_
  refine (spread_apply _ r s).trans ?_
  refine (Ideal.multiReduction_add_single (expBlock v5) 0x00000000#32 reduces_S512x2048_S512 (.inl rfl) rfl (ix1 r)).trans ?_
  refine Finset.sum_congr rfl fun k _ => ?_
  exact (congrArg (expBlock v5) (lift_row r k)).trans (expBlock_apply v5 r k)

/-- The attention weights of the block are the softmax of its scores: the body's text, regrouped. -/
theorem alphaBlock_eq (P0 : FVec Ideal S512x512 .bf16) (P1 : Vec Ideal S1x2048x512 .f32) :
    k0_pay2 (F := Ideal) P0 P1 = softBlock (scoresBlock P0 P1) := rfl

/-- Entry `(r, s)` of the block's attention weights, from row `r` of the weight block. -/
theorem alphaBlock_apply (P0 : FVec Ideal S512x512 .bf16) (P1 : Vec Ideal S1x2048x512 .f32) (r : Fin 512) (s : Fin 2048) :
    k0_pay2 (F := Ideal) P0 P1 (ix2 r s)
      = softRow (scoreRow (fun e => P0 (ix2 r e)) (fun k e => P1 (ix3 (0 : Fin 1) k e))) s := by
  rw [alphaBlock_eq]
  refine (softBlock_apply _ r s).trans ?_
  exact congrArg (fun sc => softRow sc s) (funext fun k => scores_apply P0 P1 r k)

end Cert.LabelAttention.Kernel

end
-- ==== Proof.KernelStores.lean ====
/-
  The two blocks the kernel body stores, read entry by entry.

  The attended features of a block are the contraction of its attention weights with the batch matrix over the 2048
  positions, accumulated into zero; each stored block is the computed one with a leading axis of extent one added.
  Entry `(0, r, s)` of the stored weights and entry `(0, r, e)` of the stored features are the specification's
  functions of row `r` of the weight block and of the batch matrix.
-/
import proofs.«131655_j85899346168_2_alg».proof.Proof.KernelSoftmax

noncomputable section

namespace Cert.LabelAttention.Kernel

open Cert.KernelIdeal Cert.KernelIdeal.Gen
open Idealize.ShloMosaic Idealize.ShloMosaic.ValueIdx Cert.LabelAttention

/-! ## The attended features -/

theorem mix_lhs0 (i : S512x512.Idx) (q : mixDot.contr.Idx) : (mixDot.lhsIdx i q 0).val = (i 0).val := by
  unfold DotDims.lhsIdx
  rw [dif_neg (show ¬(0 : Fin S512x2048.rank) ∈ mixDot.lhsBatch by decide),
    dif_pos (show (0 : Fin S512x2048.rank) ∈ mixDot.lhsNonContracting by decide)]
  rfl
theorem mix_lhs1 (i : S512x512.Idx) (q : mixDot.contr.Idx) : (mixDot.lhsIdx i q 1).val = (q ⟨0, by decide⟩).val :=
  mixDot.lhsIdx_val_of_single rfl i q
theorem mix_rhs0 (i : S512x512.Idx) (q : mixDot.contr.Idx) : (mixDot.rhsIdx i q 0).val = (q ⟨0, by decide⟩).val :=
  mixDot.rhsIdx_val_of_single rfl i q
theorem mix_rhs1 (i : S512x512.Idx) (q : mixDot.contr.Idx) : (mixDot.rhsIdx i q 1).val = (i 1).val := by
  unfold DotDims.rhsIdx
  rw [dif_neg (show ¬(1 : Fin S2048x512.rank) ∈ mixDot.rhsBatch by decide),
    dif_pos (show (1 : Fin S2048x512.rank) ∈ mixDot.rhsNonContracting by decide)]
  rfl

/-- The block of attended features the body forms from a block of weights and the batch matrix. -/
def mixBlock (A : FVec Ideal S512x2048 .f32) (P1 : Vec Ideal S1x2048x512 .f32) : FVec Ideal S512x512 .f32 :=
  matmul mixDot none (truncf .bf16 A bitsLt_bf16_f32) (k0_pay1 P1) (constant (F := Ideal) S512x512 .f32 0x00000000#32)

/-- Entry `(r, e)`: row `r` of the weights against column `e` of the batch matrix, over the positions. -/
theorem mix_apply (A : FVec Ideal S512x2048 .f32) (P1 : Vec Ideal S1x2048x512 .f32) (r : Fin 512) (e : Fin 512) :
    mixBlock A P1 (ix2 r e) = ∑ k : Fin 2048, A (ix2 r k) * P1 (ix3 (0 : Fin 1) k e) := by
  unfold mixBlock
  simp only [matmul]
  rw [Ideal.matmul_constant_zero_apply, ← Equiv.sum_comp (ValueIdx.contrEquiv1 mixDot 2048 rfl rfl).symm]
  refine Finset.sum_congr rfl fun k _ => ?_
  have hk := ValueIdx.contrEquiv1_symm_val mixDot 2048 rfl rfl k
  have el : mixDot.lhsIdx (ix2 r e) ((ValueIdx.contrEquiv1 mixDot 2048 rfl rfl).symm k) = ix2 r k :=
    funext fun a => Fin.ext (by
      match a with
      | ⟨0, _⟩ => exact mix_lhs0 _ _
      | ⟨1, _⟩ => exact (mix_lhs1 _ _).trans hk)
  have er : mixDot.rhsIdx (ix2 r e) ((ValueIdx.contrEquiv1 mixDot 2048 rfl rfl).symm k) = ix2 k e :=
    funext fun a => Fin.ext (by
      match a with
      | ⟨0, _⟩ => exact (mix_rhs0 _ _).trans hk
      | ⟨1, _⟩ => exact mix_rhs1 _ _)
  rw [el, er, feat_apply]
  rfl

/-! ## The two stored blocks -/

/-- What the body stores to the attention-weight window: entry `(0, r, s)`. -/
theorem alphaStore_apply (P0 : FVec Ideal S512x512 .bf16) (P1 : Vec Ideal S1x2048x512 .f32) (r : Fin 512) (s : Fin 2048) :
    k0_pay3 (F := Ideal) P0 P1 (ix3 (0 : Fin 1) r s)
      = softRow (scoreRow (fun e => P0 (ix2 r e)) (fun k e => P1 (ix3 (0 : Fin 1) k e))) s := by
  unfold k0_pay3
  exact (shapeCast_ab_1ab_apply (k0_pay2 (F := Ideal) P0 P1) shapeCasts_S512x2048_S1x512x2048 (0 : Fin 1) r s).trans
    (alphaBlock_apply P0 P1 r s)

/-- What the body stores to the attended-feature window: entry `(0, r, e)`. -/
theorem outStore_apply (P0 : FVec Ideal S512x512 .bf16) (P1 : Vec Ideal S1x2048x512 .f32) (r : Fin 512) (e : Fin 512) :
    k0_pay4 (F := Ideal) P0 P1 (ix3 (0 : Fin 1) r e)
      = outRow (softRow (scoreRow (fun e => P0 (ix2 r e)) (fun k e => P1 (ix3 (0 : Fin 1) k e))))
          (fun k e => P1 (ix3 (0 : Fin 1) k e)) e := by
  unfold k0_pay4
  refine (shapeCast_ab_1ab_apply (mixBlock (k0_pay2 (F := Ideal) P0 P1) P1) shapeCasts_S512x512_S1x512x512 (0 : Fin 1) r e).trans ?_
  rw [mix_apply]
  unfold outRow
  exact Finset.sum_congr rfl fun k _ => by rw [alphaBlock_apply]

end Cert.LabelAttention.Kernel

end
-- ==== Proof.AlphaArray.lean ====
/-
  The attention-weight array after the kernel's run is the specification's.

  Each grid point writes back one block of the [8, 8929, 2048] array: batch entry `b`, the labels of tile `li`, all
  positions. The last tile reaches past label 8928 and its write-back is cut there, so only rows that are labels are
  ever written. What is written at label `l = 512·li + r` is the body's row `r`, which is the specification's row
  for `l`; the blocks of the 8 × 18 points cover the array.
-/
import proofs.«131655_j85899346168_2_alg».proof.Proof.BlockRows
import proofs.«131655_j85899346168_2_alg».proof.Proof.KernelStores

noncomputable section

namespace Cert.LabelAttention.AlphaArray

open Cert.KernelIdeal Cert.KernelIdeal.Gen
open Idealize.ShloMosaic Idealize.ShloMosaic.TcCoe Idealize.ShloMosaic.ValueIdx Idealize.SL.Sem
open Idealize.ShloMosaic.Pipeline (Dat)
open Cert.LabelAttention Cert.LabelAttention.Blocks

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- This window's block index at every grid point is (batch entry, label tile, 0), in range. -/
theorem place_facts : ∀ t : Fin cfg0.N,
    win0_3.index t (0 : Fin 3) = win0_3.index t (0 : Fin 3) ∧ win0_3.index t (1 : Fin 3) = win0_3.index t (1 : Fin 3)
    ∧ win0_3.index t (2 : Fin 3) = 0 :=
  (by decide +kernel : ∀ t : Fin grid0.N, _)

/-- Every batch entry and label tile is some point's. -/
theorem place_onto : ∀ (q0 : Fin 8) (q1 : Fin 18), ∃ t : Fin cfg0.N, win0_3.index t = ![q0.val, q1.val, 0] :=
  (by decide +kernel : ∀ (q0 : Fin 8) (q1 : Fin 18), ∃ t : Fin grid0.N, win0_3.index t = ![q0.val, q1.val, 0])

/-- How much of a block lies inside the array: all of it along the batch and last axes; along the labels, up to
    label 8929, which cuts the last tile. -/
theorem extent_facts : ∀ t : Fin cfg0.N,
    win0_3.xsize (grid0.coords t) (0 : Fin 3) = 1 ∧ win0_3.xsize (grid0.coords t) (2 : Fin 3) = 2048
    ∧ win0_3.index t (1 : Fin 3) * 512 + win0_3.xsize (grid0.coords t) (1 : Fin 3)
        = min (win0_3.index t (1 : Fin 3) * 512 + 512) 8929 :=
  (by decide +kernel : ∀ t : Fin grid0.N, _)

/-- WHAT POINT `t` WRITES BACK is block `t`, cut at the last label, of the specification's array: entry
    `(0, r, s)` of the stored block is the specification at batch entry `b`, label `512·li + r`. -/
theorem flushed_eq (c : Dev nD) (t : Fin cfg0.N) :
    (dats m 0 c).flushed 3 t = ((cfg0.win 3).blk t).view.read (Elt Ideal)
      (alphaOf (m ((c : Thread nD τ).loc main_arg0)) (m ((c : Thread nD τ).loc main_arg1))) := by
  rw [Value.flushed3]
  unfold out0_3
  rw [View.canon_unit_zero zero3]
  simp only [View.ld_unit_zero (S := S512x512) zero2, View.ld_unit_zero (S := S1x2048x512) zero3]
  funext j
  rw [View.read_apply]
  obtain ⟨p0, p1, p2⟩ := place_facts t
  have h0 : (j 0).val < 1 := Nat.lt_of_lt_of_le (j 0).isLt ((cfg0.win 3).xsize_le (grid0.coords t) 0)
  have h1 : (j 1).val < 512 := Nat.lt_of_lt_of_le (j 1).isLt ((cfg0.win 3).xsize_le (grid0.coords t) 1)
  have h2 : (j 2).val < 2048 := Nat.lt_of_lt_of_le (j 2).isLt ((cfg0.win 3).xsize_le (grid0.coords t) 2)
  obtain ⟨b, l, s, hi⟩ : ∃ (b : Fin 8) (l : Fin 8929) (s : Fin 2048), ((cfg0.win 3).blk t).view.emb j = ix3 b l s :=
    ⟨_, _, _, eq_ix3 _⟩
  have hb : b.val = win0_3.index t (0 : Fin 3) := by
    have h := congrArg (fun z : S8x8929x2048.Idx => (z 0).val) hi
    change win0_3.index t (0 : Fin 3) * 1 + 1 * (j 0).val = b.val at h
    omega
  have hl : l.val = win0_3.index t (1 : Fin 3) * 512 + (j 1).val := by
    have h := congrArg (fun z : S8x8929x2048.Idx => (z 1).val) hi
    change win0_3.index t (1 : Fin 3) * 512 + 1 * (j 1).val = l.val at h
    omega
  have hs : s.val = (j 2).val := by
    have h := congrArg (fun z : S8x8929x2048.Idx => (z 2).val) hi
    change win0_3.index t (2 : Fin 3) * 2048 + 1 * (j 2).val = s.val at h
    omega
  have hx : (cfg0.win 3).xinj (grid0.coords t) j
      = ix3 (0 : Fin 1) (⟨(j 1).val, h1⟩ : Fin 512) (⟨(j 2).val, h2⟩ : Fin 2048) :=
    funext fun a => Fin.ext (by
      match a with
      | ⟨0, _⟩ => show (j 0).val = 0; omega
      | ⟨1, _⟩ => rfl
      | ⟨2, _⟩ => rfl)
  show k0_pay3 (iblk m c 0 t) (iblk m c 1 t) ((cfg0.win 3).xinj (grid0.coords t) j)
      = alphaOf (m ((c : Thread nD τ).loc main_arg0)) (m ((c : Thread nD τ).loc main_arg1)) (((cfg0.win 3).blk t).view.emb j)
  refine (congrArg (k0_pay3 (F := Ideal) (iblk m c 0 t) (iblk m c 1 t)) hx).trans ?_
  refine Eq.trans ?_ (congrArg (alphaOf (m ((c : Thread nD τ).loc main_arg0)) (m ((c : Thread nD τ).loc main_arg1))) hi).symm
  refine (Kernel.alphaStore_apply (iblk m c 0 t) (iblk m c 1 t) ⟨(j 1).val, h1⟩ ⟨(j 2).val, h2⟩).trans ?_
  obtain ⟨e1, e2⟩ := rows_at m c t ⟨(j 1).val, h1⟩ b l hb hl
  rw [e1, e2]
  have hs' : (⟨(j 2).val, h2⟩ : Fin 2048) = s := Fin.ext hs.symm
  rw [hs']
  rfl

/-- An index of the array is in point `t`'s block iff each coordinate is within the block's part inside the array. -/
theorem mem_blk (t : Fin cfg0.N) (i : S8x8929x2048.Idx) :
    i ∈ ((cfg0.win 3).blk t).view.set ↔ ∀ a : Fin 3, win0_3.index t a * S1x512x2048.size a ≤ (i a).val
      ∧ (i a).val < win0_3.index t a * S1x512x2048.size a + win0_3.xsize (grid0.coords t) a := by
  show i ∈ ((View.whole main_v2_1).slice (win0_3.rect t)).set ↔ _
  rw [View.set_slice_whole, Rect.mem_set_unit]
  exact Iff.rfl

/-- Every index of the array lies in the block of the point for its batch entry and its label's tile. -/
theorem cover (i : S8x8929x2048.Idx) :
    ∃ t : Fin cfg0.N, (cfg0.win 3).flush t = true ∧ i ∈ ((cfg0.win 3).blk t).view.set := by
  have hi0 : (i 0).val < 8 := (i 0).isLt
  have hi1 : (i 1).val < 8929 := (i 1).isLt
  have hi2 : (i 2).val < 2048 := (i 2).isLt
  obtain ⟨t, ht⟩ := place_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  obtain ⟨x0, x2, x1⟩ := extent_facts t
  refine ⟨t, flush0_3 t, ?_⟩
  rw [mem_blk]
  intro a
  match a with
  | ⟨0, _⟩ =>
    show win0_3.index t (0 : Fin 3) * 1 ≤ (i 0).val
      ∧ (i 0).val < win0_3.index t (0 : Fin 3) * 1 + win0_3.xsize (grid0.coords t) (0 : Fin 3)
    rw [x0, q0]; omega
  | ⟨1, _⟩ =>
    show win0_3.index t (1 : Fin 3) * 512 ≤ (i 1).val
      ∧ (i 1).val < win0_3.index t (1 : Fin 3) * 512 + win0_3.xsize (grid0.coords t) (1 : Fin 3)
    rw [x1, q1]; omega
  | ⟨2, _⟩ =>
    show win0_3.index t (2 : Fin 3) * 2048 ≤ (i 2).val
      ∧ (i 2).val < win0_3.index t (2 : Fin 3) * 2048 + win0_3.xsize (grid0.coords t) (2 : Fin 3)
    rw [x2, q2]; omega

/-- THE ARRAY after the run is the specification's, every entry of it. -/
theorem final (c : Dev nD) : (dats m 0 c).arrAt 3 cfg0.N
    = alphaOf (m ((c : Thread nD τ).loc main_arg0)) (m ((c : Thread nD τ).loc main_arg1)) :=
  (dats m 0 c).arrAt_eq_of_cover 3 _ (fun t _ => flushed_eq m c t) cover

end Cert.LabelAttention.AlphaArray

end
-- ==== Proof.OutArray.lean ====
/-
  The attended-feature array after the kernel's run is the specification's.

  Each grid point writes back one block of the [8, 8929, 512] array: batch entry `b`, the labels of tile `li`, all
  512 features. The last tile reaches past label 8928 and its write-back is cut there, so only rows that are labels
  are ever written. What is written at label `l = 512·li + r` is the body's row `r`, which is the specification's
  row for `l`; the blocks of the 8 × 18 points cover the array.
-/
import proofs.«131655_j85899346168_2_alg».proof.Proof.BlockRows
import proofs.«131655_j85899346168_2_alg».proof.Proof.KernelStores

noncomputable section

namespace Cert.LabelAttention.OutArray

open Cert.KernelIdeal Cert.KernelIdeal.Gen
open Idealize.ShloMosaic Idealize.ShloMosaic.TcCoe Idealize.ShloMosaic.ValueIdx Idealize.SL.Sem
open Idealize.ShloMosaic.Pipeline (Dat)
open Cert.LabelAttention Cert.LabelAttention.Blocks

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- This window's block index at every grid point is (batch entry, label tile, 0), in range. -/
theorem place_facts : ∀ t : Fin cfg0.N,
    win0_2.index t (0 : Fin 3) = win0_3.index t (0 : Fin 3) ∧ win0_2.index t (1 : Fin 3) = win0_3.index t (1 : Fin 3)
    ∧ win0_2.index t (2 : Fin 3) = 0 :=
  (by decide +kernel : ∀ t : Fin grid0.N, _)

/-- Every batch entry and label tile is some point's. -/
theorem place_onto : ∀ (q0 : Fin 8) (q1 : Fin 18), ∃ t : Fin cfg0.N, win0_2.index t = ![q0.val, q1.val, 0] :=
  (by decide +kernel : ∀ (q0 : Fin 8) (q1 : Fin 18), ∃ t : Fin grid0.N, win0_2.index t = ![q0.val, q1.val, 0])

/-- How much of a block lies inside the array: all of it along the batch and last axes; along the labels, up to
    label 8929, which cuts the last tile. -/
theorem extent_facts : ∀ t : Fin cfg0.N,
    win0_2.xsize (grid0.coords t) (0 : Fin 3) = 1 ∧ win0_2.xsize (grid0.coords t) (2 : Fin 3) = 512
    ∧ win0_2.index t (1 : Fin 3) * 512 + win0_2.xsize (grid0.coords t) (1 : Fin 3)
        = min (win0_2.index t (1 : Fin 3) * 512 + 512) 8929 :=
  (by decide +kernel : ∀ t : Fin grid0.N, _)

/-- WHAT POINT `t` WRITES BACK is block `t`, cut at the last label, of the specification's array: entry
    `(0, r, e)` of the stored block is the specification at batch entry `b`, label `512·li + r`. -/
theorem flushed_eq (c : Dev nD) (t : Fin cfg0.N) :
    (dats m 0 c).flushed 2 t = ((cfg0.win 2).blk t).view.read (Elt Ideal)
      (outOf (m ((c : Thread nD τ).loc main_arg0)) (m ((c : Thread nD τ).loc main_arg1))) := by
  rw [Value.flushed2]
  unfold out0_2
  rw [View.canon_unit_zero zero3]
  simp only [View.ld_unit_zero (S := S512x512) zero2, View.ld_unit_zero (S := S1x2048x512) zero3]
  funext j
  rw [View.read_apply]
  obtain ⟨p0, p1, p2⟩ := place_facts t
  have h0 : (j 0).val < 1 := Nat.lt_of_lt_of_le (j 0).isLt ((cfg0.win 2).xsize_le (grid0.coords t) 0)
  have h1 : (j 1).val < 512 := Nat.lt_of_lt_of_le (j 1).isLt ((cfg0.win 2).xsize_le (grid0.coords t) 1)
  have h2 : (j 2).val < 512 := Nat.lt_of_lt_of_le (j 2).isLt ((cfg0.win 2).xsize_le (grid0.coords t) 2)
  obtain ⟨b, l, s, hi⟩ : ∃ (b : Fin 8) (l : Fin 8929) (s : Fin 512), ((cfg0.win 2).blk t).view.emb j = ix3 b l s :=
    ⟨_, _, _, eq_ix3 _⟩
  have hb : b.val = win0_3.index t (0 : Fin 3) := by
    have h := congrArg (fun z : S8x8929x512.Idx => (z 0).val) hi
    change win0_2.index t (0 : Fin 3) * 1 + 1 * (j 0).val = b.val at h
    omega
  have hl : l.val = win0_3.index t (1 : Fin 3) * 512 + (j 1).val := by
    have h := congrArg (fun z : S8x8929x512.Idx => (z 1).val) hi
    change win0_2.index t (1 : Fin 3) * 512 + 1 * (j 1).val = l.val at h
    omega
  have hs : s.val = (j 2).val := by
    have h := congrArg (fun z : S8x8929x512.Idx => (z 2).val) hi
    change win0_2.index t (2 : Fin 3) * 512 + 1 * (j 2).val = s.val at h
    omega
  have hx : (cfg0.win 2).xinj (grid0.coords t) j
      = ix3 (0 : Fin 1) (⟨(j 1).val, h1⟩ : Fin 512) (⟨(j 2).val, h2⟩ : Fin 512) :=
    funext fun a => Fin.ext (by
      match a with
      | ⟨0, _⟩ => show (j 0).val = 0; omega
      | ⟨1, _⟩ => rfl
      | ⟨2, _⟩ => rfl)
  show k0_pay4 (iblk m c 0 t) (iblk m c 1 t) ((cfg0.win 2).xinj (grid0.coords t) j)
      = outOf (m ((c : Thread nD τ).loc main_arg0)) (m ((c : Thread nD τ).loc main_arg1)) (((cfg0.win 2).blk t).view.emb j)
  refine (congrArg (k0_pay4 (F := Ideal) (iblk m c 0 t) (iblk m c 1 t)) hx).trans ?_
  refine Eq.trans ?_ (congrArg (outOf (m ((c : Thread nD τ).loc main_arg0)) (m ((c : Thread nD τ).loc main_arg1))) hi).symm
  refine (Kernel.outStore_apply (iblk m c 0 t) (iblk m c 1 t) ⟨(j 1).val, h1⟩ ⟨(j 2).val, h2⟩).trans ?_
  obtain ⟨e1, e2⟩ := rows_at m c t ⟨(j 1).val, h1⟩ b l hb hl
  rw [e1, e2]
  have hs' : (⟨(j 2).val, h2⟩ : Fin 512) = s := Fin.ext hs.symm
  rw [hs']
  rfl

/-- An index of the array is in point `t`'s block iff each coordinate is within the block's part inside the array. -/
theorem mem_blk (t : Fin cfg0.N) (i : S8x8929x512.Idx) :
    i ∈ ((cfg0.win 2).blk t).view.set ↔ ∀ a : Fin 3, win0_2.index t a * S1x512x512.size a ≤ (i a).val
      ∧ (i a).val < win0_2.index t a * S1x512x512.size a + win0_2.xsize (grid0.coords t) a := by
  show i ∈ ((View.whole main_v2_0).slice (win0_2.rect t)).set ↔ _
  rw [View.set_slice_whole, Rect.mem_set_unit]
  exact Iff.rfl

/-- Every index of the array lies in the block of the point for its batch entry and its label's tile. -/
theorem cover (i : S8x8929x512.Idx) :
    ∃ t : Fin cfg0.N, (cfg0.win 2).flush t = true ∧ i ∈ ((cfg0.win 2).blk t).view.set := by
  have hi0 : (i 0).val < 8 := (i 0).isLt
  have hi1 : (i 1).val < 8929 := (i 1).isLt
  have hi2 : (i 2).val < 512 := (i 2).isLt
  obtain ⟨t, ht⟩ := place_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  obtain ⟨x0, x2, x1⟩ := extent_facts t
  refine ⟨t, flush0_2 t, ?_⟩
  rw [mem_blk]
  intro a
  match a with
  | ⟨0, _⟩ =>
    show win0_2.index t (0 : Fin 3) * 1 ≤ (i 0).val
      ∧ (i 0).val < win0_2.index t (0 : Fin 3) * 1 + win0_2.xsize (grid0.coords t) (0 : Fin 3)
    rw [x0, q0]; omega
  | ⟨1, _⟩ =>
    show win0_2.index t (1 : Fin 3) * 512 ≤ (i 1).val
      ∧ (i 1).val < win0_2.index t (1 : Fin 3) * 512 + win0_2.xsize (grid0.coords t) (1 : Fin 3)
    rw [x1, q1]; omega
  | ⟨2, _⟩ =>
    show win0_2.index t (2 : Fin 3) * 512 ≤ (i 2).val
      ∧ (i 2).val < win0_2.index t (2 : Fin 3) * 512 + win0_2.xsize (grid0.coords t) (2 : Fin 3)
    rw [x2, q2]; omega

/-- THE ARRAY after the run is the specification's, every entry of it. -/
theorem final (c : Dev nD) : (dats m 0 c).arrAt 2 cfg0.N
    = outOf (m ((c : Thread nD τ).loc main_arg0)) (m ((c : Thread nD τ).loc main_arg1)) :=
  (dats m 0 c).arrAt_eq_of_cover 2 _ (fun t _ => flushed_eq m c t) cover

end Cert.LabelAttention.OutArray

end
-- ==== Proof.lean ====
/-
  Label attention: a tiled kernel against the plain einsum–softmax–einsum reference, equal on the extended reals.

  For input `x` [8, 2048, 512] and label weights `U` [8929, 512] both programs return
    alpha[b, l, s] = softmax over s of  Σ_e U[l, e] · x[b, s, e]      and      out[b, l, e] = Σ_s alpha[b, l, s] · x[b, s, e],
  the softmax in its stabilised form (each row's maximum subtracted before exponentiating).

  The kernel pads the weights to 9216 rows, changes number formats (the identity on the extended reals), and walks a
  grid of 8 batch entries by 18 tiles of 512 labels; at each point it computes a tile's scores, softmax and attended
  features and writes both tiles back, the last tile's write-back cut at label 8929. Because a label's results depend
  on its own weight row only, each tile is the restriction of the whole arrays (`Spec.lean`: `alphaOf`, `outOf`),
  and the padding rows never reach a stored entry. The kernel's side is `KernelRows` / `KernelSoftmax` /
  `KernelStores` (the body, entry by entry), `PaddedWeights` and `BlockRows` (what the blocks hold) and
  `AlphaArray` / `OutArray` (from blocks to the arrays); the reference's side is `RefIsSpec`. The two sides meet at
  the same term: the only arithmetic used is `0 + a = a`, so the inputs' finiteness is never needed.

  The idealized kernel is the kernel's own text read on the extended reals (no rewrite was made), so that claim is
  trivial; the three frames are the generated ones, the reference's being its run with the results dropped.
-/
import proofs.«131655_j85899346168_2_alg».proof.Defs
import proofs.«131655_j85899346168_2_alg».proof.Proof.Gen.Kernel
import proofs.«131655_j85899346168_2_alg».proof.Proof.Gen.Kernel.Skeleton
import proofs.«131655_j85899346168_2_alg».proof.Proof.Gen.Kernel.Launch
import proofs.«131655_j85899346168_2_alg».proof.Proof.Gen.Kernel.Points
import proofs.«131655_j85899346168_2_alg».proof.Proof.Gen.Kernel.Frame
import proofs.«131655_j85899346168_2_alg».proof.Proof.Gen.KernelIdeal
import proofs.«131655_j85899346168_2_alg».proof.Proof.Gen.KernelIdeal.Skeleton
import proofs.«131655_j85899346168_2_alg».proof.Proof.Gen.KernelIdeal.Launch
import proofs.«131655_j85899346168_2_alg».proof.Proof.Gen.KernelIdeal.Points
import proofs.«131655_j85899346168_2_alg».proof.Proof.Gen.KernelIdeal.Frame
import proofs.«131655_j85899346168_2_alg».proof.Proof.Gen.ReferenceIdeal
import proofs.«131655_j85899346168_2_alg».proof.Proof.Gen.Pre_finite_inputs
import proofs.«131655_j85899346168_2_alg».proof.Proof.Gen.KernelIdeal.Value
import proofs.«131655_j85899346168_2_alg».proof.Proof.Gen.ReferenceIdeal.Run
import proofs.«131655_j85899346168_2_alg».proof.Proof.Gen.ReferenceIdeal.Read
import proofs.«131655_j85899346168_2_alg».proof.Proof.RefIsSpec
import proofs.«131655_j85899346168_2_alg».proof.Proof.AlphaArray
import proofs.«131655_j85899346168_2_alg».proof.Proof.OutArray
import Idealize.ShloMosaic.Adequacy
import Idealize.ShloMosaic.Init

noncomputable section

namespace Cert.Proof

open Idealize.ShloMosaic Idealize.ShloMosaic.TcCoe Idealize.SL.Sem Cert.LabelAttention

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on `x` and `U`, both programs end with the attended features `outOf x U` and the
    attention weights `alphaOf x U`: the kernel by its blocks (cut at the last label) covering both arrays, the
    reference operation by operation. -/
theorem algebraic : Cert.algebraic_KernelIdeal_ReferenceIdeal := by
  intro m ρ m' ρ' _ hagree
  refine ⟨fun c => outOf (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => alphaOf (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · exact (θ_run Cert.KernelIdeal.defs _ _).mono
      (fun r h c => ⟨(h c).1.trans (OutArray.final m c), (h c).2.1.trans (AlphaArray.final m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v13_eq, Reference.out_eq, (hagree c).1, (hagree c).2]
    · rw [(h c).2.1, Cert.ReferenceIdeal.Read.val_main_v12_eq, Reference.alpha_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
